-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x4096x8 : Shape := ⟨3, ![1, 4096, 8]⟩
abbrev S8x4096x1 : Shape := ⟨3, ![8, 4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x4096x8 : S_.BroadcastsInDim S1x4096x8 (![] : Fin 0 → Fin S1x4096x8.rank)
  reducesTo_S1x4096x8_S_d0_1_2 : S1x4096x8.ReducesTo [0, 1, 2] S_
  bcast_S_S8x4096x1 : S_.BroadcastsInDim S8x4096x1 (![] : Fin 0 → Fin S8x4096x1.rank)
  reducesTo_S8x4096x1_S_d0_1_2 : S8x4096x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S1x4096x8 .f32) (main_arg2 : FVec F S8x4096x1 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x4096x8 .f32 := Host.absf main_arg1
  let main_cst_0 : FVec F S_ .f32 := constant S_ .f32 0x7F800000#32
  let main_v5 : FVec F S1x4096x8 .f32 := broadcastInDim S1x4096x8 ![] bcast_S_S1x4096x8 main_cst_0
  let main_v6 : IVec S1x4096x8 1 := cmpf .olt main_v4 main_v5
  let main_c_1 : IVec S_ 1 := constantI S_ 1 1#1
  let main_v7 : IVec S_ 1 := (fun x v => Host.reduce IntOp.andi x v reducesTo_S1x4096x8_S_d0_1_2 h_S_) main_v6 main_c_1
  let main_v8 : IVec S_ 1 := andi main_v3 main_v7
  let main_v9 : FVec F S8x4096x1 .f32 := Host.absf main_arg2
  let main_cst_2 : FVec F S_ .f32 := constant S_ .f32 0x7F800000#32
  let main_v10 : FVec F S8x4096x1 .f32 := broadcastInDim S8x4096x1 ![] bcast_S_S8x4096x1 main_cst_2
  let main_v11 : IVec S8x4096x1 1 := cmpf .olt main_v9 main_v10
  let main_c_3 : IVec S_ 1 := constantI S_ 1 1#1
  let main_v12 : IVec S_ 1 := (fun x v => Host.reduce IntOp.andi x v reducesTo_S8x4096x1_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S1x4096x8 : Shape := ⟨3, ![1, 4096, 8]⟩
abbrev S8x4096x1 : Shape := ⟨3, ![8, 4096, 1]⟩
abbrev S4096 : Shape := ⟨1, ![4096]⟩
abbrev S4096x8 : Shape := ⟨2, ![4096, 8]⟩
abbrev S8x4096 : Shape := ⟨2, ![8, 4096]⟩
abbrev S1x4096 : Shape := ⟨2, ![1, 4096]⟩
abbrev S512x4096 : Shape := ⟨2, ![512, 4096]⟩
abbrev S512x8 : Shape := ⟨2, ![512, 8]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x8, .f32⟩
  | .hbm, ⟨2, _⟩ => ⟨S8x4096x1, .f32⟩
  | .hbm, ⟨3, _⟩ => ⟨S4096, .f32⟩
  | .hbm, ⟨4, _⟩ => ⟨S4096x8, .f32⟩
  | .hbm, ⟨5, _⟩ => ⟨S8x4096, .f32⟩
  | .hbm, ⟨6, _⟩ => ⟨S8x4096, .f32⟩
  | .hbm, ⟨7, _⟩ => ⟨S1x4096, .f32⟩
  | .hbm, ⟨8, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S8x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x4096x8_S4096x8 : S1x4096x8.ShapeCasts S4096x8
  shapeCasts_S8x4096x1_S8x4096 : S8x4096x1.ShapeCasts S8x4096
  transposes_S4096x8_S8x4096_1_0 : S4096x8.Transposes [1, 0] S8x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x4096_S8x4096_S512x8_1_1_0_0_n_n_wf : DotDims.WF S512x4096 S8x4096 S512x8 [1] [1] [0] [0] [] []
  dot_S512x8_S8x4096_S512x4096_1_0_0_1_n_n_wf : DotDims.WF S512x8 S8x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S8x4096_S512x8_1_1_0_0_n_n : DotDims S512x4096 S8x4096 S512x8 where
  lhsContracting := [1]
  rhsContracting := [1]
  lhsNonContracting := [0]
  rhsNonContracting := [0]
  lhsBatch := []
  rhsBatch := []
  wf := dot_S512x4096_S8x4096_S512x8_1_1_0_0_n_n_wf
def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x4096x8 : Shape := ⟨3, ![1, 4096, 8]⟩
abbrev S8x4096x1 : Shape := ⟨3, ![8, 4096, 1]⟩
abbrev S4096 : Shape := ⟨1, ![4096]⟩
abbrev S4096x8 : Shape := ⟨2, ![4096, 8]⟩
abbrev S8x4096 : Shape := ⟨2, ![8, 4096]⟩
abbrev S4096x4096 : Shape := ⟨2, ![4096, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x8, .f32⟩
  | .hbm, ⟨2, _⟩ => ⟨S8x4096x1, .f32⟩
  | .hbm, ⟨3, _⟩ => ⟨S4096, .f32⟩
  | .hbm, ⟨4, _⟩ => ⟨S4096x8, .f32⟩
  | .hbm, ⟨5, _⟩ => ⟨S8x4096, .f32⟩
  | .hbm, ⟨6, _⟩ => ⟨S4096x4096, .f32⟩
  | .hbm, ⟨7, _⟩ => ⟨S4096x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S1x4096x8_S4096x8 : S1x4096x8.ShapeCasts S4096x8
  shapeCasts_S8x4096x1_S8x4096 : S8x4096x1.ShapeCasts S8x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x8_S8x4096_S4096x4096_1_0_0_1_n_n_wf : DotDims.WF S4096x8 S8x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LowRank.lean ====
/-
  A linear layer whose weight matrix is given by two thin factors of rank 8:
  `W[o, i] = ∑ r, c0[0, o, r] * c1[r, i, 0]`, result `y[t, o] = ∑ i, x[t, i] * W[o, i] + b[o]`.

  The result can be summed in two orders.  `viaWeight` forms the weight entry first and then contracts it
  against the row of `x`; `viaRank` first contracts the row of `x` against each of the eight rows of the
  second factor, and then contracts those eight numbers against the first factor.  On the extended reals
  the two orders need not agree (distributivity fails at the infinities), but they do as soon as every entry
  of `x`, `c0` and `c1` is a real number: then both are one finite double sum of real products.
-/
import Idealize.ShloMosaic.PureOps.Ideal
import Idealize.ShloMosaic.Lib.ValueIdx

noncomputable section

namespace Cert.LowRank

open Idealize.ShloMosaic Idealize.ShloMosaic.ValueIdx

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: contracting `x` against each row of `a` and the results against `b` is contracting
    `x` against the combined vector `∑ r, b r * a r ·` (distributivity twice and a swap of the two sums). -/
theorem real_regroup {ι κ : Type} [Fintype ι] [Fintype κ] (x : ι → ℝ) (a : κ → ι → ℝ) (b : κ → ℝ) :
    ∑ r, (∑ i, x i * a r i) * b r = ∑ i, x i * ∑ r, b r * a r i := by
  simp only [Finset.sum_mul, Finset.mul_sum]
  rw [Finset.sum_comm]
  exact Finset.sum_congr rfl fun i _ => Finset.sum_congr rfl fun r _ => by ring

/-- The same on the extended reals, for entries that are real numbers. -/
theorem ereal_regroup {ι κ : Type} [Fintype ι] [Fintype κ] (x : ι → ℝ) (a : κ → ι → ℝ) (b : κ → ℝ) :
    ∑ r, (∑ i, (x i : EReal) * (a r i : EReal)) * (b r : EReal)
      = ∑ i, (x i : EReal) * ∑ r, (b r : EReal) * (a r i : EReal) := by
  simp only [← EReal.coe_mul, ← coe_sum]
  exact congrArg _ (real_regroup x a b)

/-- Every entry of an array of extended reals is a real number. -/
def AllReal {α : Type} (f : α → EReal) : Prop := ∀ i, ∃ r : ℝ, f i = (r : EReal)

abbrev SX : Shape := ⟨2, ![8192, 4096]⟩
abbrev SC0 : Shape := ⟨3, ![1, 4096, 8]⟩
abbrev SC1 : Shape := ⟨3, ![8, 4096, 1]⟩
abbrev SB : Shape := ⟨1, ![4096]⟩

/-- The layer summed through the rank axis last: row `t` of `x` against each of the eight rows of the second
    factor, those eight numbers against row `o` of the first factor, plus the bias. -/
def viaRank (x : SX.Idx → EReal) (c0 : SC0.Idx → EReal) (c1 : SC1.Idx → EReal) (b : SB.Idx → EReal) : SX.Idx → EReal :=
  fun j => (∑ r : Fin 8, (∑ i : Fin 4096, x (ix2 (n0 := 8192) (n1 := 4096) (j 0) i) * c1 (ix3 (n0 := 8) (n1 := 4096) (n2 := 1) r i 0))
      * c0 (ix3 (n0 := 1) (n1 := 4096) (n2 := 8) 0 (j 1) r))
    + b (ix1 (n := 4096) (j 1))

/-- The layer summed through the weight matrix: entry `(o, i)` of the weight is the product of the factors over
    the rank axis, and row `t` of `x` is contracted against row `o` of the weight, plus the bias. -/
def viaWeight (x : SX.Idx → EReal) (c0 : SC0.Idx → EReal) (c1 : SC1.Idx → EReal) (b : SB.Idx → EReal) : SX.Idx → EReal :=
  fun j => (∑ i : Fin 4096, x (ix2 (n0 := 8192) (n1 := 4096) (j 0) i)
      * ∑ r : Fin 8, c0 (ix3 (n0 := 1) (n1 := 4096) (n2 := 8) 0 (j 1) r) * c1 (ix3 (n0 := 8) (n1 := 4096) (n2 := 1) r i 0))
    + b (ix1 (n := 4096) (j 1))

/-- With real entries in `x` and both factors the two orders give the same array (the bias may be anything). -/
theorem viaRank_eq_viaWeight (x : SX.Idx → EReal) (c0 : SC0.Idx → EReal) (c1 : SC1.Idx → EReal) (b : SB.Idx → EReal)
    (hx : AllReal x) (h0 : AllReal c0) (h1 : AllReal c1) : viaRank x c0 c1 b = viaWeight x c0 c1 b := by
  choose x' hx' using hx
  choose c0' h0' using h0
  choose c1' h1' using h1
  funext j
  unfold viaRank viaWeight
  simp only [hx', h0', h1']
  exact congrArg (· + b (ix1 (n := 4096) (j 1)))
    (ereal_regroup (fun i : Fin 4096 => x' (ix2 (n0 := 8192) (n1 := 4096) (j 0) i))
      (fun (r : Fin 8) (i : Fin 4096) => c1' (ix3 (n0 := 8) (n1 := 4096) (n2 := 1) r i 0))
      (fun r : Fin 8 => c0' (ix3 (n0 := 1) (n1 := 4096) (n2 := 8) 0 (j 1) r)))

end Cert.LowRank

end
-- ==== Proof.RefForm.lean ====
/-
  The reference program read at an index.  Its stages are: the two factors reshaped to matrices
  (`c0[0, o, r] ↦ A0[o, r]`, `c1[r, i, 0] ↦ A1[r, i]`), their product `W = A0 · A1` over the rank axis,
  the transpose of `W`, the product of `x` with that transpose over the input-feature axis, and the bias
  broadcast along the rows and added.  Entry `(t, o)` of the result is therefore
  `∑ i, x[t, i] * (∑ r, c0[0, o, r] * c1[r, i, 0]) + b[o]`: the layer summed through the weight matrix.
  The only work is to see that the composed index maps of the reshapes, the transpose and the two broadcasts
  land on those coordinates.
-/
import proofs.«161400_j10531259810490_2_alg».proof.Proof.Gen.ReferenceIdeal.Read
import proofs.«161400_j10531259810490_2_alg».proof.Proof.LowRank

noncomputable section

namespace Cert.ReferenceIdeal.RefForm

open Cert.ReferenceIdeal Cert.ReferenceIdeal.Read Idealize.ShloMosaic Idealize.ShloMosaic.ValueIdx Cert.LowRank

/-- The reference's result, as a function of its four arguments, is the layer summed through the weight matrix. -/
theorem stage_eq (x0 : (⟨S8192x4096, .f32⟩ : BufTy).Contents (Elt Ideal)) (x1 : (⟨S1x4096x8, .f32⟩ : BufTy).Contents (Elt Ideal))
    (x2 : (⟨S8x4096x1, .f32⟩ : BufTy).Contents (Elt Ideal)) (x3 : (⟨S4096, .f32⟩ : BufTy).Contents (Elt Ideal)) :
    val_main_v7 (F := Ideal) x0 x1 x2 x3 = viaWeight x0 x1 x2 x3 := by
  funext j
  have hj0 : (j 0).val < 8192 := (j 0).isLt
  have hj1 : (j 1).val < 4096 := (j 1).isLt
  rw [val_main_v7_apply, val_main_v4_apply, val_main_v6_apply, val_main_v5_apply]
  unfold viaWeight
  show (∑ k : Fin 4096, _) + _ = _
  congr 1
  · refine Finset.sum_congr rfl fun k _ => ?_
    have hk : k.val < 4096 := k.isLt
    rw [val_main_v3_apply, val_main_v2_apply]
    congr 1
    · -- the row of `x`: (t, k)
      exact congrArg x0 (funext fun a => Fin.ext (by
        match a with
        | ⟨0, _⟩ => rfl
        | ⟨1, _⟩ => rfl))
    · refine Finset.sum_congr rfl fun r _ => ?_
      have hr : r.val < 8 := r.isLt
      rw [val_main_v0_apply, val_main_v1_apply]
      congr 1
      · -- the first factor: (0, o, r)
        exact congrArg x1 (funext fun a => Fin.ext (by
          match a with
          | ⟨0, _⟩ => rfl
          | ⟨1, _⟩ => show ((j 1).val * 8 + r.val) / 8 % 4096 = (j 1).val; omega
          | ⟨2, _⟩ => show ((j 1).val * 8 + r.val) % 8 = r.val; omega))
      · -- the second factor: (r, k, 0)
        exact congrArg x2 (funext fun a => Fin.ext (by
          match a with
          | ⟨0, _⟩ => show (r.val * 4096 + k.val) / 4096 = r.val; omega
          | ⟨1, _⟩ => show (r.val * 4096 + k.val) / 1 % 4096 = k.val; omega
          | ⟨2, _⟩ => rfl))
  · -- the bias: (o)
    exact congrArg x3 (funext fun a => Fin.ext (by
      match a with
      | ⟨0, _⟩ => rfl))

end Cert.ReferenceIdeal.RefForm

end
-- ==== Proof.FiniteEntries.lean ====
/-
  What the precondition says.  It is the conjunction, over the four arguments, of "every entry `a` has
  `|a| < +∞`".  On the extended reals `|a| = max a (-a)`, and `max a (-a) < +∞` excludes exactly `a = +∞`
  and `a = -∞`: every entry of every argument is a real number.
-/
import proofs.«161400_j10531259810490_2_alg».proof.Pre_finite_inputs
import proofs.«161400_j10531259810490_2_alg».proof.Proof.Gen.Pre_finite_inputs
import proofs.«161400_j10531259810490_2_alg».proof.Proof.LowRank
import Idealize.ShloMosaic.Lib.ReduceAll
import Idealize.ShloMosaic.Lib.ValueIdx

noncomputable section

namespace Cert.FiniteEntries

open Idealize.ShloMosaic Idealize.ShloMosaic.ValueIdx Cert.LowRank

instance : Subsingleton Cert.Pre_finite_inputs.S_.Idx := ⟨fun a b => funext fun d => d.elim0⟩

/-- An extended real whose absolute value compares below `+∞` is a real number. -/
theorem real_of_abs_lt_top (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

/-- The precondition, all ones, makes every entry of every argument a real number. -/
theorem allReal_of_pre (a0 : FVec Ideal Cert.Pre_finite_inputs.S8192x4096 .f32) (a1 : FVec Ideal Cert.Pre_finite_inputs.S1x4096x8 .f32)
    (a2 : FVec Ideal Cert.Pre_finite_inputs.S8x4096x1 .f32) (a3 : FVec Ideal Cert.Pre_finite_inputs.S4096 .f32)
    (h : Cert.Pre_finite_inputs.fn (F := Ideal) a0 a1 a2 a3 = fun _ => 1#1) :
    AllReal a0 ∧ AllReal a1 ∧ AllReal a2 ∧ AllReal a3 := by
  have h0 := congrFun h ix0
  dsimp only [Cert.Pre_finite_inputs.fn, Cert.Pre_finite_inputs.fn_part1] at h0
  have h1 : IntOp.andi (IntOp.andi (IntOp.andi (Host.reduce IntOp.andi _ _ _ _ ix0) (Host.reduce IntOp.andi _ _ _ _ ix0))
      (Host.reduce IntOp.andi _ _ _ _ ix0)) (Host.reduce IntOp.andi _ _ _ _ ix0) = 1#1 := h0
  rw [IntOp.andi_eq_one, IntOp.andi_eq_one, IntOp.andi_eq_one] at h1
  obtain ⟨⟨⟨e0, e1⟩, e2⟩, e3⟩ := h1
  refine ⟨fun i => ?_, fun i => ?_, fun i => ?_, fun i => ?_⟩
  · exact real_of_abs_lt_top (a0 i) (Host.reduce_andi_all _ _ _ _ ix0 e0 i)
  · exact real_of_abs_lt_top (a1 i) (Host.reduce_andi_all _ _ _ _ ix0 e1 i)
  · exact real_of_abs_lt_top (a2 i) (Host.reduce_andi_all _ _ _ _ ix0 e2 i)
  · exact real_of_abs_lt_top (a3 i) (Host.reduce_andi_all _ _ _ _ ix0 e3 i)

end Cert.FiniteEntries

end
-- ==== Proof.BodyValue.lean ====
/-
  What one call of the kernel body computes, entry by entry.  The body loads a block `X` of 512 rows of `x`,
  the whole second factor `A1` (8 × 4096), the whole transposed first factor `A0t` (8 × 4096) and the bias
  row `b` (1 × 4096).  It forms `Y = X · A1ᵀ` (512 × 8, contracting the 4096 input features), then
  `Y · A0t` (512 × 4096, contracting the rank axis), both into zero accumulators, and adds the bias row to
  every row.  On the extended reals the changes of float format are the identity and a matrix product into a
  zero accumulator is the plain sum of products, so entry `(p, q)` of the stored block is
  `∑ r, (∑ i, X[p, i] * A1[r, i]) * A0t[r, q] + b[0, q]`.
-/
import proofs.«161400_j10531259810490_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-! ## The operand coordinates of the two products -/

/-- First product, left operand: its row is the output's row. -/
theorem first_lhs_row (j : S512x8.Idx) (k : dot_S512x4096_S8x4096_S512x8_1_1_0_0_n_n.contr.Idx) : (dot_S512x4096_S8x4096_S512x8_1_1_0_0_n_n.lhsIdx j k 0).val = (j 0).val := by
  unfold DotDims.lhsIdx
  rw [dif_neg (show ¬(0 : Fin S512x4096.rank) ∈ dot_S512x4096_S8x4096_S512x8_1_1_0_0_n_n.lhsBatch by decide), dif_pos (show (0 : Fin S512x4096.rank) ∈ dot_S512x4096_S8x4096_S512x8_1_1_0_0_n_n.lhsNonContracting by decide)]
  rfl

/-- First product, right operand: its row is the output's column (the right operand is contracted along its
    second axis, i.e. used transposed). -/
theorem first_rhs_row (j : S512x8.Idx) (k : dot_S512x4096_S8x4096_S512x8_1_1_0_0_n_n.contr.Idx) : (dot_S512x4096_S8x4096_S512x8_1_1_0_0_n_n.rhsIdx j k 0).val = (j 1).val := by
  unfold DotDims.rhsIdx
  rw [dif_neg (show ¬(0 : Fin S8x4096.rank) ∈ dot_S512x4096_S8x4096_S512x8_1_1_0_0_n_n.rhsBatch by decide), dif_pos (show (0 : Fin S8x4096.rank) ∈ dot_S512x4096_S8x4096_S512x8_1_1_0_0_n_n.rhsNonContracting by decide)]
  rfl

/-- Second product, left operand: its row is the output's row. -/
theorem second_lhs_row (j : S512x4096.Idx) (k : dot_S512x8_S8x4096_S512x4096_1_0_0_1_n_n.contr.Idx) : (dot_S512x8_S8x4096_S512x4096_1_0_0_1_n_n.lhsIdx j k 0).val = (j 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl

/-- Second product, right operand: its column is the output's column. -/
theorem second_rhs_col (j : S512x4096.Idx) (k : dot_S512x8_S8x4096_S512x4096_1_0_0_1_n_n.contr.Idx) : (dot_S512x8_S8x4096_S512x4096_1_0_0_1_n_n.rhsIdx j k 1).val = (j 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

/-! ## The two products and the bias row at an entry -/

/-- `(X · A1ᵀ)[p, r] = ∑ i, X[p, i] * A1[r, i]`. -/
theorem first_product (a : FVec Ideal S512x4096 .bf16) (b : FVec Ideal S8x4096 .bf16) (p : Fin 512) (r : Fin 8) :
    matmul (F := Ideal) dot_S512x4096_S8x4096_S512x8_1_1_0_0_n_n none a b (constant (F := Ideal) S512x8 .f32 0x00000000#32) (ix2 p r)
      = ∑ i : Fin 4096, a (ix2 p i) * b (ix2 r i) := by
  simp only [matmul]
  rw [Ideal.matmul_constant_zero_apply, ← Equiv.sum_comp (contrEquiv1 dot_S512x4096_S8x4096_S512x8_1_1_0_0_n_n 4096 rfl rfl).symm]
  refine Finset.sum_congr rfl fun k _ => ?_
  have hk := contrEquiv1_symm_val dot_S512x4096_S8x4096_S512x8_1_1_0_0_n_n 4096 rfl rfl k
  have el : dot_S512x4096_S8x4096_S512x8_1_1_0_0_n_n.lhsIdx (ix2 p r) ((contrEquiv1 dot_S512x4096_S8x4096_S512x8_1_1_0_0_n_n 4096 rfl rfl).symm k) = ix2 p k := funext fun a => Fin.ext (by
    match a with
    | ⟨0, _⟩ => exact first_lhs_row _ _
    | ⟨1, _⟩ => exact (dot_S512x4096_S8x4096_S512x8_1_1_0_0_n_n.lhsIdx_val_of_single rfl _ _).trans hk)
  have er : dot_S512x4096_S8x4096_S512x8_1_1_0_0_n_n.rhsIdx (ix2 p r) ((contrEquiv1 dot_S512x4096_S8x4096_S512x8_1_1_0_0_n_n 4096 rfl rfl).symm k) = ix2 r k := funext fun a => Fin.ext (by
    match a with
    | ⟨0, _⟩ => exact first_rhs_row _ _
    | ⟨1, _⟩ => exact (dot_S512x4096_S8x4096_S512x8_1_1_0_0_n_n.rhsIdx_val_of_single rfl _ _).trans hk)
  rw [el, er]

/-- `(Y · A0t)[p, q] = ∑ r, Y[p, r] * A0t[r, q]`. -/
theorem second_product (y : FVec Ideal S512x8 .f32) (b : FVec Ideal S8x4096 .f32) (p : Fin 512) (q : Fin 4096) :
    matmul (F := Ideal) dot_S512x8_S8x4096_S512x4096_1_0_0_1_n_n none y b (constant (F := Ideal) S512x4096 .f32 0x00000000#32) (ix2 p q)
      = ∑ r : Fin 8, y (ix2 p r) * b (ix2 r q) := by
  simp only [matmul]
  rw [Ideal.matmul_constant_zero_apply, ← Equiv.sum_comp (contrEquiv1 dot_S512x8_S8x4096_S512x4096_1_0_0_1_n_n 8 rfl rfl).symm]
  refine Finset.sum_congr rfl fun k _ => ?_
  have hk := contrEquiv1_symm_val dot_S512x8_S8x4096_S512x4096_1_0_0_1_n_n 8 rfl rfl k
  have el : dot_S512x8_S8x4096_S512x4096_1_0_0_1_n_n.lhsIdx (ix2 p q) ((contrEquiv1 dot_S512x8_S8x4096_S512x4096_1_0_0_1_n_n 8 rfl rfl).symm k) = ix2 p k := funext fun a => Fin.ext (by
    match a with
    | ⟨0, _⟩ => exact second_lhs_row _ _
    | ⟨1, _⟩ => exact (dot_S512x8_S8x4096_S512x4096_1_0_0_1_n_n.lhsIdx_val_of_single rfl _ _).trans hk)
  have er : dot_S512x8_S8x4096_S512x4096_1_0_0_1_n_n.rhsIdx (ix2 p q) ((contrEquiv1 dot_S512x8_S8x4096_S512x4096_1_0_0_1_n_n 8 rfl rfl).symm k) = ix2 k q := funext fun a => Fin.ext (by
    match a with
    | ⟨0, _⟩ => exact (dot_S512x8_S8x4096_S512x4096_1_0_0_1_n_n.rhsIdx_val_of_single rfl _ _).trans hk
    | ⟨1, _⟩ => exact second_rhs_col _ _)
  rw [el, er]

/-- The bias row repeated down the 512 rows: entry `(p, q)` is `b[0, q]`. -/
theorem bias_rows (z : FVec Ideal S1x4096 .f32) (h : S1x4096.Broadcasts S512x4096) (p : Fin 512) (q : Fin 4096) :
    broadcastTo S512x4096 z h (ix2 p q) = z (ix2 0 q) :=
  broadcastTo_apply z h (ix2 p q) (ix2 0 q) (fun a => by
    match a with
    | ⟨0, _⟩ => show (0 : ℕ) = if (1 : ℕ) = 1 then 0 else p.val; rw [if_pos rfl]
    | ⟨1, _⟩ => show q.val = if (4096 : ℕ) = 1 then 0 else q.val; rw [if_neg (by decide)])

/-! ## The stored block at an entry -/

/-- Entry `(p, q)` of the block the body stores, from the four loaded blocks. -/
theorem pay_apply (v0 : FVec Ideal S512x4096 .f32) (v2 v6 : FVec Ideal S8x4096 .f32) (v9 : FVec Ideal S1x4096 .f32)
    (p : Fin 512) (q : Fin 4096) :
    k0_pay1 (F := Ideal) v0 v2 v6 v9 (ix2 p q)
      = (∑ r : Fin 8, (∑ i : Fin 4096, v0 (ix2 p i) * v2 (ix2 r i)) * v6 (ix2 r q)) + v9 (ix2 0 q) := by
  unfold k0_pay1
  simp only [shapeCast_self]
  rw [addf_apply, second_product, bias_rows]
  congr 1
  refine Finset.sum_congr rfl fun r _ => ?_
  rw [first_product]
  rfl

end Cert.KernelIdeal.BodyValue

end
-- ==== Proof.BlockEntry.lean ====
/-
  One entry of one stored block, against the layer's formula.  If the loaded block of `x` holds row `t` of `x`
  in its row `p`, the two loaded factor matrices hold the factors' entries, and the loaded bias row holds the
  bias, then entry `(p, q)` of what the body stores is entry `(t, o)` of the layer summed through the rank axis
  last, where `o` is the array column that block column `q` stands for.
-/
import proofs.«161400_j10531259810490_2_alg».proof.Proof.BodyValue
import proofs.«161400_j10531259810490_2_alg».proof.Proof.LowRank

noncomputable section

namespace Cert.KernelIdeal.BlockEntry

open Cert.KernelIdeal Cert.KernelIdeal.Gen Idealize.ShloMosaic Idealize.ShloMosaic.ValueIdx Cert.LowRank

theorem pay_eq_viaRank (v0 : FVec Ideal S512x4096 .f32) (v2 v6 : FVec Ideal S8x4096 .f32) (v9 : FVec Ideal S1x4096 .f32)
    (X : SX.Idx → EReal) (C0 : SC0.Idx → EReal) (C1 : SC1.Idx → EReal) (B : SB.Idx → EReal)
    (p : Fin 512) (q : Fin 4096) (j : SX.Idx)
    (h0 : ∀ i : Fin 4096, v0 (ix2 p i) = X (ix2 (n0 := 8192) (n1 := 4096) (j 0) i))
    (h1 : ∀ (r : Fin 8) (i : Fin 4096), v2 (ix2 r i) = C1 (ix3 (n0 := 8) (n1 := 4096) (n2 := 1) r i 0))
    (h2 : ∀ r : Fin 8, v6 (ix2 r q) = C0 (ix3 (n0 := 1) (n1 := 4096) (n2 := 8) 0 (j 1) r))
    (h3 : v9 (ix2 0 q) = B (ix1 (n := 4096) (j 1))) :
    k0_pay1 (F := Ideal) v0 v2 v6 v9 (ix2 p q) = viaRank X C0 C1 B j := by
  rw [BodyValue.pay_apply]
  unfold viaRank
  simp only [h0, h1, h2, h3]

end Cert.KernelIdeal.BlockEntry

end
-- ==== Proof.EntryArrays.lean ====
/-
  The arrays the launch finds.  Before the launch the program re-lays its small arguments without changing
  any number: the second factor `c1` (8 × 4096 × 1) is reshaped to the matrix `A1[r, i] = c1[r, i, 0]`; the first
  factor `c0` (1 × 4096 × 8) is reshaped to `A0[o, r] = c0[0, o, r]` and transposed to `A0t[r, o] = c0[0, o, r]`;
  the bias (4096) is reshaped to a row `b[0, o] = bias[o]`.  The argument `x` is passed as it is.
-/
import proofs.«161400_j10531259810490_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The second factor as the launch finds it: the argument reshaped to a matrix. -/
theorem second_factor (c : Dev nD) (h : S8x4096x1.ShapeCasts S8x4096) :
    (V m c main_v1 : S8x4096.Idx → EReal) = shapeCast S8x4096 (m ((c : Thread nD τ).loc main_arg2)) h := by
  dsimp only [Gen.V, Gen.hostOps0]; after_results; rfl

/-- The first factor as the launch finds it: the argument reshaped to a matrix, then transposed. -/
theorem first_factor (c : Dev nD) (h : S1x4096x8.ShapeCasts S4096x8) (h' : S4096x8.Transposes [1, 0] S8x4096) :
    (V m c main_v2 : S8x4096.Idx → EReal)
      = transpose S8x4096 [1, 0] (shapeCast S4096x8 (m ((c : Thread nD τ).loc main_arg1)) h) h' := by
  dsimp only [Gen.V, Gen.hostOps0]; after_results; rfl

/-- The bias as the launch finds it: the argument reshaped to a row. -/
theorem bias_row (c : Dev nD) (h : S4096.ShapeCasts S1x4096) :
    (V m c main_v3 : S1x4096.Idx → EReal) = shapeCast S1x4096 (m ((c : Thread nD τ).loc main_arg3)) h := by
  dsimp only [Gen.V, Gen.hostOps0]; after_results; rfl

/-- Entry `(r, i)` of the second factor's matrix is `c1[r, i, 0]`. -/
theorem second_factor_at (c : Dev nD) (z : S8x4096.Idx) (r : Fin 8) (i : Fin 4096) (h0 : (z 0).val = r.val) (h1 : (z 1).val = i.val) :
    V m c main_v1 z = m ((c : Thread nD τ).loc main_arg2) (ix3 (n0 := 8) (n1 := 4096) (n2 := 1) r i 0) := by
  have hr : r.val < 8 := r.isLt
  have hi : i.val < 4096 := i.isLt
  refine (congrFun (second_factor m c Facts₀.shapeCasts_S8x4096x1_S8x4096) z).trans ?_
  exact shapeCast_apply _ _ z _ (by
    show (S8x4096x1.rowMajor (ix3 (n0 := 8) (n1 := 4096) (n2 := 1) r i 0)).val = (S8x4096.rowMajor z).val
    rewrite [Shape.rowMajor_val_three, Shape.rowMajor_val_two]
    show (r.val * 4096 + i.val) * 1 + 0 = (z 0).val * 4096 + (z 1).val
    rw [h0, h1]; omega)

/-- Entry `(r, o)` of the transposed first factor's matrix is `c0[0, o, r]`. -/
theorem first_factor_at (c : Dev nD) (z : S8x4096.Idx) (r : Fin 8) (o : Fin 4096) (h0 : (z 0).val = r.val) (h1 : (z 1).val = o.val) :
    V m c main_v2 z = m ((c : Thread nD τ).loc main_arg1) (ix3 (n0 := 1) (n1 := 4096) (n2 := 8) 0 o r) := by
  have hr : r.val < 8 := r.isLt
  have ho : o.val < 4096 := o.isLt
  refine (congrFun (first_factor m c Facts₀.shapeCasts_S1x4096x8_S4096x8 Facts₀.transposes_S4096x8_S8x4096_1_0) z).trans ?_
  refine (transpose_apply [1, 0] _ _ z (ix2 (n0 := 4096) (n1 := 8) o r) (fun b => by
    match b with
    | ⟨0, _⟩ => exact h0.symm
    | ⟨1, _⟩ => exact h1.symm)).trans ?_
  exact shapeCast_apply _ _ (ix2 (n0 := 4096) (n1 := 8) o r) _ (by
    show (S1x4096x8.rowMajor (ix3 (n0 := 1) (n1 := 4096) (n2 := 8) 0 o r)).val = (S4096x8.rowMajor (ix2 (n0 := 4096) (n1 := 8) o r)).val
    rewrite [Shape.rowMajor_val_three, Shape.rowMajor_val_two]
    show (0 * 4096 + o.val) * 8 + r.val = o.val * 8 + r.val
    omega)

/-- Entry `(0, o)` of the bias row is `bias[o]`. -/
theorem bias_row_at (c : Dev nD) (z : S1x4096.Idx) (o : Fin 4096) (h1 : (z 1).val = o.val) :
    V m c main_v3 z = m ((c : Thread nD τ).loc main_arg3) (ix1 (n := 4096) o) := by
  have ho : o.val < 4096 := o.isLt
  have hz0 : (z 0).val = 0 := by have h : (z 0).val < 1 := (z 0).isLt; omega
  refine (congrFun (bias_row m c Facts₀.shapeCasts_S4096_S1x4096) z).trans ?_
  exact shapeCast_apply _ _ z _ (by
    show (S4096.rowMajor (ix1 (n := 4096) o)).val = (S1x4096.rowMajor z).val
    rewrite [Shape.rowMajor_val_one, Shape.rowMajor_val_two]
    show o.val = (z 0).val * 4096 + (z 1).val
    rw [hz0, h1]; omega)

/-- `x` is found as launched. -/
theorem x_at (c : Dev nD) (z i : S8192x4096.Idx) (h0 : (z 0).val = (i 0).val) (h1 : (z 1).val = (i 1).val) :
    V m c main_arg0 z = m ((c : Thread nD τ).loc main_arg0) i := by
  rw [V_main_arg0]
  exact congrArg _ (funext fun a => Fin.ext (by
    match a with
    | ⟨0, _⟩ => exact h0
    | ⟨1, _⟩ => exact h1))

end Cert.KernelIdeal.EntryArrays

end
-- ==== Proof.WholeArray.lean ====
/-
  From blocks to the whole result array.  The launch runs the body at 16 grid points.  At point `t` the block of
  `x` is rows `512 t … 512 t + 511` (all 4096 columns), the two factor matrices and the bias row are the same
  whole arrays at every point, and the block written back is rows `512 t … 512 t + 511` of the result.  So what
  point `t` writes back is exactly that band of rows of the layer's array (summed through the rank axis last),
  and since row `n` lies in the band of point `n / 512`, the sixteen bands cover the array: after the run the
  result array is the layer's array.
-/
import proofs.«161400_j10531259810490_2_alg».proof.Proof.Gen.KernelIdeal.Value
import proofs.«161400_j10531259810490_2_alg».proof.Proof.BlockEntry
import proofs.«161400_j10531259810490_2_alg».proof.Proof.EntryArrays
import Idealize.ShloMosaic.Lib.Pipeline.Value

noncomputable section

namespace Cert.KernelIdeal.WholeArray

open Cert.KernelIdeal Cert.KernelIdeal.Gen Idealize.ShloMosaic Idealize.ShloMosaic.TcCoe Idealize.SL.Sem
open Idealize.ShloMosaic.ValueIdx Cert.LowRank
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices at every grid point: `x` and the result move down one band of rows per point; the factor
    matrices and the bias row stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer's array of the four arguments as launched, summed through the rank axis last. -/
abbrev result (c : Dev nD) : SX.Idx → EReal :=
  viaRank (m ((c : Thread nD τ).loc main_arg0)) (m ((c : Thread nD τ).loc main_arg1)) (m ((c : Thread nD τ).loc main_arg2)) (m ((c : Thread nD τ).loc main_arg3))

/-- What point `t` writes back is its band of rows of the layer's array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero origin]
  simp only [View.ld_unit_zero (S := S512x4096) origin, View.ld_unit_zero (S := S8x4096) origin, View.ld_unit_zero (S := S1x4096) origin]
  obtain ⟨e00, e01, e10, e11, e20, e21, e30, e31, e40, e41⟩ := block_indices t
  funext y
  have hy0 : (y 0).val < 512 := (y 0).isLt
  have hy1 : (y 1).val < 4096 := (y 1).isLt
  show k0_pay1 (F := Ideal) (iblk m c 0 t) (iblk m c 1 t) (iblk m c 2 t) (iblk m c 3 t) y
    = result m c (((cfg0.win 4).blk t).view.emb y)
  refine (congrArg (k0_pay1 (F := Ideal) (iblk m c 0 t) (iblk m c 1 t) (iblk m c 2 t) (iblk m c 3 t))
    (eq_ix2 (n0 := 512) (n1 := 4096) y)).trans ?_
  refine BlockEntry.pay_eq_viaRank (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3))
    (y 0) (y 1) (((cfg0.win 4).blk t).view.emb y) ?_ ?_ ?_ ?_
  · -- row `p` of the block of `x` is row `512 t + p` of `x`
    intro i
    show V m c main_arg0 (((cfg0.win 0).blk t).view.emb (ix2 (n0 := 512) (n1 := 4096) (y 0) i)) = _
    exact EntryArrays.x_at m c _ _
      (by show win0_0.index t (0 : Fin 2) * 512 + 1 * (y 0).val = win0_4.index t (0 : Fin 2) * 512 + 1 * (y 0).val; rw [e00, e40])
      (by show win0_0.index t (1 : Fin 2) * 4096 + 1 * i.val = i.val; rw [e01]; omega)
  · -- the second factor's block is the whole matrix
    intro r i
    show V m c main_v1 (((cfg0.win 1).blk t).view.emb (ix2 (n0 := 8) (n1 := 4096) r i)) = _
    exact EntryArrays.second_factor_at m c _ r i
      (by show win0_1.index t (0 : Fin 2) * 8 + 1 * r.val = r.val; rw [e10]; omega)
      (by show win0_1.index t (1 : Fin 2) * 4096 + 1 * i.val = i.val; rw [e11]; omega)
  · -- the transposed first factor's block is the whole matrix; block column `q` is array column `q`
    intro r
    show V m c main_v2 (((cfg0.win 2).blk t).view.emb (ix2 (n0 := 8) (n1 := 4096) r (y 1))) = _
    exact EntryArrays.first_factor_at m c _ r _
      (by show win0_2.index t (0 : Fin 2) * 8 + 1 * r.val = r.val; rw [e20]; omega)
      (by show win0_2.index t (1 : Fin 2) * 4096 + 1 * (y 1).val = win0_4.index t (1 : Fin 2) * 4096 + 1 * (y 1).val; rw [e21, e41])
  · -- the bias row's block is the whole row
    show V m c main_v3 (((cfg0.win 3).blk t).view.emb (ix2 (n0 := 1) (n1 := 4096) 0 (y 1))) = _
    exact EntryArrays.bias_row_at m c _ _
      (by show win0_3.index t (1 : Fin 2) * 4096 + 1 * (y 1).val = win0_4.index t (1 : Fin 2) * 4096 + 1 * (y 1).val; rw [e31, e41])

/-- An index of the result array is in point `t`'s block iff each coordinate is in the block's range on its axis. -/
theorem mem_block (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v4).slice (win0_4.rect t)).set ↔ _
  rw [View.set_slice_whole, Rect.mem_set_unit]
  exact Iff.rfl

/-- Row `n` of the result lies in the band written back at point `n / 512`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 16 := N_0
  obtain ⟨t, ht⟩ : ∃ t : Fin cfg0.N, t.val = (i 0).val / 512 := ⟨⟨(i 0).val / 512, by rw [hN]; omega⟩, rfl⟩
  refine ⟨t, flush0_4 t, ?_⟩
  obtain ⟨-, -, -, -, -, -, -, -, e40, e41⟩ := block_indices t
  rw [mem_block]
  intro a
  match a with
  | ⟨0, _⟩ =>
    show win0_4.index t (0 : Fin 2) * 512 ≤ (i 0).val ∧ (i 0).val < win0_4.index t (0 : Fin 2) * 512 + 512
    rw [e40, ht]; omega
  | ⟨1, _⟩ =>
    show win0_4.index t (1 : Fin 2) * 4096 ≤ (i 1).val ∧ (i 1).val < win0_4.index t (1 : Fin 2) * 4096 + 4096
    rw [e41]; omega

/-- After the run the result array is the layer's array. -/
theorem final (c : Dev nD) : (dats m 0 c).arrAt 4 cfg0.N = result m c :=
  (dats m 0 c).arrAt_eq_of_cover 4 (result m c) (fun t _ => flushed_eq m c t) cover

/-- The kernel's run: every weakly fair execution terminates with the result array at the layer's array of the
    arguments, and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.WholeArray

end
-- ==== Proof.lean ====
/-
  A linear layer with a rank-8 factored weight, `y = x · Wᵀ + b` with `W[o, i] = ∑ r, c0[0, o, r] * c1[r, i, 0]`,
  over `x : 8192 × 4096`.

  The kernel never forms `W`.  In bands of 512 rows of `x` it computes `Y = X · A1ᵀ` (512 × 8) and then
  `Y · A0t + b`, where `A1[r, i] = c1[r, i, 0]` and `A0t[r, o] = c0[0, o, r]` are re-layings of the two
  factors done before the launch: entry `(t, o)` of its result is
  `∑ r, (∑ i, x[t, i] * c1[r, i, 0]) * c0[0, o, r] + b[o]`.
  The reference forms `W` and contracts: `∑ i, x[t, i] * (∑ r, c0[0, o, r] * c1[r, i, 0]) + b[o]`.

  On the extended reals the changes of float format inside the kernel are the identity and every matrix
  product is the plain sum of products, so the two results differ only in the order of a double sum and in
  where the factor `c0[0, o, r]` is multiplied in.  Distributivity is needed to pass from one to the other,
  and on the extended reals it holds once the entries are real numbers: that is what the precondition
  (every entry of every argument has absolute value below `+∞`) provides.  The bias is only added, so it
  plays no part in the law.

  The modules: `LowRank` states the two orders of summation and proves them equal for real entries;
  `RefForm` reads the reference's stages at an index; `BodyValue`, `BlockEntry` read one stored block of the
  kernel at an entry; `EntryArrays` reads the re-laid factors and bias the launch finds; `WholeArray` passes
  from the sixteen bands to the whole array and states the kernel's run; `FiniteEntries` reads the
  precondition.  The three frame claims are the generated frames of the two kernel programs and, for the
  reference (which launches nothing), its run with the result dropped.  The idealization rewrote no operation,
  so that claim is `True`.
-/
import proofs.«161400_j10531259810490_2_alg».proof.Defs
import proofs.«161400_j10531259810490_2_alg».proof.Proof.Gen.Kernel
import proofs.«161400_j10531259810490_2_alg».proof.Proof.Gen.Kernel.Skeleton
import proofs.«161400_j10531259810490_2_alg».proof.Proof.Gen.Kernel.Launch
import proofs.«161400_j10531259810490_2_alg».proof.Proof.Gen.Kernel.Points
import proofs.«161400_j10531259810490_2_alg».proof.Proof.Gen.Kernel.Frame
import proofs.«161400_j10531259810490_2_alg».proof.Proof.Gen.KernelIdeal
import proofs.«161400_j10531259810490_2_alg».proof.Proof.Gen.KernelIdeal.Skeleton
import proofs.«161400_j10531259810490_2_alg».proof.Proof.Gen.KernelIdeal.Launch
import proofs.«161400_j10531259810490_2_alg».proof.Proof.Gen.KernelIdeal.Points
import proofs.«161400_j10531259810490_2_alg».proof.Proof.Gen.KernelIdeal.Frame
import proofs.«161400_j10531259810490_2_alg».proof.Proof.Gen.ReferenceIdeal
import proofs.«161400_j10531259810490_2_alg».proof.Proof.Gen.Pre_finite_inputs
import proofs.«161400_j10531259810490_2_alg».proof.Proof.Gen.KernelIdeal.Value
import proofs.«161400_j10531259810490_2_alg».proof.Proof.Gen.ReferenceIdeal.Run
import proofs.«161400_j10531259810490_2_alg».proof.Proof.Gen.ReferenceIdeal.Read
import proofs.«161400_j10531259810490_2_alg».proof.Proof.LowRank
import proofs.«161400_j10531259810490_2_alg».proof.Proof.RefForm
import proofs.«161400_j10531259810490_2_alg».proof.Proof.FiniteEntries
import proofs.«161400_j10531259810490_2_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference launches nothing: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read on the extended reals. -/
theorem preserves : Cert.preserves_Kernel_KernelIdeal := trivial

/-- From memories that agree on the four arguments, all of whose entries are real numbers, the kernel ends with
    the layer summed through the rank axis last and the reference with the layer summed through the weight
    matrix: one array. -/
theorem algebraic : Cert.algebraic_KernelIdeal_ReferenceIdeal := by
  intro m ρ m' ρ' hpre hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefForm.stage_eq,
    (hagree c).1, (hagree c).2.1, (hagree c).2.2.1, (hagree c).2.2.2]
  obtain ⟨r0, r1, r2, _⟩ := Cert.FiniteEntries.allReal_of_pre _ _ _ _ (hpre c)
  exact (Cert.LowRank.viaRank_eq_viaWeight _ _ _ _ r0 r1 r2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
